-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S128x512 : Shape := ⟨2, ![128, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S128x512 : S_.BroadcastsInDim S128x512 (![] : Fin 0 → Fin S128x512.rank)
  reducesTo_S128x512_S_d0_1 : S128x512.ReducesTo [0, 1] S_

variable [Facts]

def fn {F : FTy → Type} [FloatOps F] (main_arg0 : FVec F S1024x512 .f32) (main_arg1 : FVec F S512x512 .f32) (main_arg2 : FVec F S128x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S128x512 : Shape := ⟨2, ![128, 512]⟩
abbrev S256x512 : Shape := ⟨2, ![256, 512]⟩
abbrev S256x128 : Shape := ⟨2, ![256, 128]⟩
abbrev S128x128 : Shape := ⟨2, ![128, 128]⟩
abbrev S256x1x128 : Shape := ⟨3, ![256, 1, 128]⟩
abbrev S1x128x128 : Shape := ⟨3, ![1, 128, 128]⟩
abbrev S256x128x128 : Shape := ⟨3, ![256, 128, 128]⟩
abbrev S1024x128 : Shape := ⟨2, ![1024, 128]⟩

abbrev nBuf : Space → Nat
  | .hbm => 5
  | .vmem => 11
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S128x512, .f32⟩
  | .hbm, ⟨3, _⟩ => ⟨S1024x512, .f32⟩
  | .hbm, ⟨4, _⟩ => ⟨S1024x128, .f32⟩
  | .local _ .vmem, ⟨0, _⟩ => ⟨S256x512, .f32⟩
  | .local _ .vmem, ⟨1, _⟩ => ⟨S256x512, .f32⟩
  | .local _ .vmem, ⟨2, _⟩ => ⟨S128x512, .f32⟩
  | .local _ .vmem, ⟨3, _⟩ => ⟨S128x512, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S128x512, .f32⟩
  | .local _ .vmem, ⟨9, _⟩ => ⟨S256x128, .f32⟩
  | .local _ .vmem, ⟨10, _⟩ => ⟨S256x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S256x512_S256x512_0_0 : ∀ a, (![0, 0] : Fin 2 → Nat) a + S256x512.size a ≤ S256x512.size a
  h_S256x512 : 0 < S256x512.numel
  inb_S128x512_S128x512_0_0 : ∀ a, (![0, 0] : Fin 2 → Nat) a + S128x512.size a ≤ S128x512.size a
  h_S128x512 : 0 < S128x512.numel
  slices_S256x512_o0_0_S256x128 : S256x512.Slices ![0, 0] S256x128
  slices_S128x512_o0_0_S128x128 : S128x512.Slices ![0, 0] S128x128
  shapeCasts_S256x128_S256x1x128 : S256x128.ShapeCasts S256x1x128
  shapeCasts_S128x128_S1x128x128 : S128x128.ShapeCasts S1x128x128
  broadcasts_S256x1x128_S256x128x128 : S256x1x128.Broadcasts S256x128x128
  broadcasts_S1x128x128_S256x128x128 : S1x128x128.Broadcasts S256x128x128
  reduces_S256x128x128_S256x128 : S256x128x128.Reduces [2] S256x128
  slices_S256x512_o0_128_S256x128 : S256x512.Slices ![0, 128] S256x128
  slices_S128x512_o0_128_S128x128 : S128x512.Slices ![0, 128] S128x128
  slices_S256x512_o0_256_S256x128 : S256x512.Slices ![0, 256] S256x128
  slices_S128x512_o0_256_S128x128 : S128x512.Slices ![0, 256] S128x128
  slices_S256x512_o0_384_S256x128 : S256x512.Slices ![0, 384] S256x128
  slices_S128x512_o0_384_S128x128 : S128x512.Slices ![0, 384] S128x128
  inb_S256x128_S256x128_0_0 : ∀ a, (![0, 0] : Fin 2 → Nat) a + S256x128.size a ≤ S256x128.size a
  h_S256x128 : 0 < S256x128.numel
  shapeCasts_S256x512_S256x512 : S256x512.ShapeCasts S256x512
  dot_S256x512_S128x512_S256x128_1_1_0_0_n_n_wf : DotDims.WF S256x512 S128x512 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S1024x512.size a
  hwx0_2 : ∀ i : grid0.Coords, EltTy.bits .f32 = 32 ∨ (Rect.block (s := S1024x512) S256x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S1024x512.size a
  hwx1_0 : ∀ i : grid1.Coords, EltTy.bits .f32 = 32 ∨ (Rect.block (s := S1024x512) S256x512.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S1024x128.size a
  hwx1_2 : ∀ i : grid1.Coords, EltTy.bits .f32 = 32 ∨ (Rect.block (s := S1024x128) S256x128.size (cc1_transform_2 i) (hinb1_2 i)).WholeWords (EltTy.packing .f32)

variable [Facts₀]

def dot_S256x512_S128x512_S256x128_1_1_0_0_n_n : DotDims S256x512 S128x512 S256x128 where
  lhsContracting := [1]
  rhsContracting := [1]
  lhsNonContracting := [0]
  rhsNonContracting := [0]
  lhsBatch := []
  rhsBatch := []
  wf := dot_S256x512_S128x512_S256x128_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x512.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S128x512 : Shape := ⟨2, ![128, 512]⟩
abbrev S1024x512x1 : Shape := ⟨3, ![1024, 512, 1]⟩
abbrev S1x512x512 : Shape := ⟨3, ![1, 512, 512]⟩
abbrev S1024x512x512 : Shape := ⟨3, ![1024, 512, 512]⟩
abbrev S_ : Shape := ⟨0, ![]⟩
abbrev S512x128 : Shape := ⟨2, ![512, 128]⟩
abbrev S1x512x128 : Shape := ⟨3, ![1, 512, 128]⟩
abbrev S1024x512x128 : Shape := ⟨3, ![1024, 512, 128]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S128x512, .f32⟩
  | .hbm, ⟨3, _⟩ => ⟨S1024x512x1, .f32⟩
  | .hbm, ⟨4, _⟩ => ⟨S512x512, .f32⟩
  | .hbm, ⟨5, _⟩ => ⟨S1x512x512, .f32⟩
  | .hbm, ⟨6, _⟩ => ⟨S1024x512x512, .f32⟩
  | .hbm, ⟨7, _⟩ => ⟨S1024x512x512, .f32⟩
  | .hbm, ⟨8, _⟩ => ⟨S1024x512x512, .f32⟩
  | .hbm, ⟨9, _⟩ => ⟨S1024x512x512, .f32⟩
  | .hbm, ⟨10, _⟩ => ⟨S_, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S512x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512x1, .f32⟩
  | .hbm, ⟨23, _⟩ => ⟨S512x128, .f32⟩
  | .hbm, ⟨24, _⟩ => ⟨S1x512x128, .f32⟩
  | .hbm, ⟨25, _⟩ => ⟨S1024x512x128, .f32⟩
  | .hbm, ⟨26, _⟩ => ⟨S1024x512x128, .f32⟩
  | .hbm, ⟨27, _⟩ => ⟨S1024x512x128, .f32⟩
  | .hbm, ⟨28, _⟩ => ⟨S1024x512x128, .f32⟩
  | .hbm, ⟨29, _⟩ => ⟨S_, .f32⟩
  | .hbm, ⟨30, _⟩ => ⟨S1024x128, .f32⟩
  | .hbm, ⟨31, _⟩ => ⟨S_, .f32⟩
  | .hbm, ⟨32, _⟩ => ⟨S1024x128, .f32⟩
  | .hbm, ⟨33, _⟩ => ⟨S1024x128, .f32⟩
  | .hbm, ⟨34, _⟩ => ⟨S512x128, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S1024x512_S1024x512x1_0_1 : S1024x512.BroadcastsInDim S1024x512x1 (![0, 1] : Fin 2 → Fin S1024x512x1.rank)
  transposes_S512x512_S512x512_1_0 : S512x512.Transposes [1, 0] S512x512
  bcast_S512x512_S1x512x512_1_2 : S512x512.BroadcastsInDim S1x512x512 (![1, 2] : Fin 2 → Fin S1x512x512.rank)
  bcast_S1024x512x1_S1024x512x512_0_1_2 : S1024x512x1.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d1 : S1024x512x512.ReducesTo [1] S1024x512
  h_S_ : 0 < S_.numel
  bcast_S_S1024x512 : S_.BroadcastsInDim S1024x512 (![] : Fin 0 → Fin S1024x512.rank)
  transposes_S128x512_S512x128_1_0 : S128x512.Transposes [1, 0] S512x128
  bcast_S512x128_S1x512x128_1_2 : S512x128.BroadcastsInDim S1x512x128 (![1, 2] : Fin 2 → Fin S1x512x128.rank)
  bcast_S1024x512x1_S1024x512x128_0_1_2 : S1024x512x1.BroadcastsInDim S1024x512x128 (![0, 1, 2] : Fin 3 → Fin S1024x512x128.rank)
  bcast_S1x512x128_S1024x512x128_0_1_2 : S1x512x128.BroadcastsInDim S1024x512x128 (![0, 1, 2] : Fin 3 → Fin S1024x512x128.rank)
  reducesTo_S1024x512x128_S1024x128_d1 : S1024x512x128.ReducesTo [1] S1024x128
  bcast_S_S1024x128 : S_.BroadcastsInDim S1024x128 (![] : Fin 0 → Fin S1024x128.rank)
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

class Facts : Prop extends Facts₀ where

variable [Facts]
-- ==== Proof.DnfLayer.lean ====
import Idealize.ShloMosaic.Lib.ValueIdx
import Idealize.ShloMosaic.PureOps.Ideal

/-!
# The two layers as functions of their argument arrays

A layer takes activations `x : [A, K]` and weights `W : [B, K]` (stored output-major) and gives, at `(p, q)`, a
function of ROW `p` of `x` and ROW `q` of `W` only. With `|t| = max t (-t)` on the extended reals, the three
statistics of a pair of rows `a`, `w` are

* the product          `Σ_k a_k · w_k`,
* the sum of sizes     `Σ_k |a_k| · |w_k|`,
* the largest size     `max_k |a_k| · |w_k|`, a maximum taken from `-∞`,

and with `δ` the f32 nearest `0.1` (kept as its bit pattern: the same word on both sides of the claim is never
evaluated) the conjunction layer is `tanh (product + δ · (largest − sum))` and the disjunction layer is
`product + δ · (sum − largest)`. The whole computation is the disjunction layer of the conjunction layer's result.
No program is imported here.
-/

noncomputable section

namespace Cert.DnfLayer

open Idealize.ShloMosaic Idealize.ShloMosaic.ValueIdx

/-- The scale of the bias term: the f32 nearest `0.1`, as its bit pattern. -/
def delta : EReal := Ideal.ofBits .f32 0x3DCCCCCD#32

/-- `|t|` on the extended reals, as both programs compute it. -/
def size (t : EReal) : EReal := max t (-t)

variable {K : ℕ}

/-- `Σ_k a_k · w_k`. -/
def product (a w : Fin K → EReal) : EReal := ∑ k, a k * w k
/-- `Σ_k |a_k| · |w_k|`. -/
def sumSize (a w : Fin K → EReal) : EReal := ∑ k, size (a k) * size (w k)
/-- `max_k |a_k| · |w_k|`, from `-∞`. -/
def maxSize (a w : Fin K → EReal) : EReal := (Finset.univ : Finset (Fin K)).fold max ⊥ fun k => size (a k) * size (w k)

/-- The conjunction layer on a pair of rows. -/
def conjRow (a w : Fin K → EReal) : EReal := Ideal.tanh (product a w + delta * (maxSize a w - sumSize a w))
/-- The disjunction layer on a pair of rows. -/
def disjRow (a w : Fin K → EReal) : EReal := product a w + delta * (sumSize a w - maxSize a w)

variable {A B : ℕ}

/-- The conjunction layer on arrays: entry `(p, q)` from row `p` of `x` and row `q` of `W`. -/
def conj (x : (⟨2, ![A, K]⟩ : Shape).Idx → EReal) (W : (⟨2, ![B, K]⟩ : Shape).Idx → EReal) :
    (⟨2, ![A, B]⟩ : Shape).Idx → EReal :=
  fun i => conjRow (fun k => x (ix2 (i 0) k)) (fun k => W (ix2 (i 1) k))

/-- The disjunction layer on arrays. -/
def disj (x : (⟨2, ![A, K]⟩ : Shape).Idx → EReal) (W : (⟨2, ![B, K]⟩ : Shape).Idx → EReal) :
    (⟨2, ![A, B]⟩ : Shape).Idx → EReal :=
  fun i => disjRow (fun k => x (ix2 (i 0) k)) (fun k => W (ix2 (i 1) k))

theorem conj_ix2 (x : (⟨2, ![A, K]⟩ : Shape).Idx → EReal) (W : (⟨2, ![B, K]⟩ : Shape).Idx → EReal) (p : Fin A) (q : Fin B) :
    conj x W (ix2 p q) = conjRow (fun k => x (ix2 p k)) (fun k => W (ix2 q k)) := rfl

theorem disj_ix2 (x : (⟨2, ![A, K]⟩ : Shape).Idx → EReal) (W : (⟨2, ![B, K]⟩ : Shape).Idx → EReal) (p : Fin A) (q : Fin B) :
    disj x W (ix2 p q) = disjRow (fun k => x (ix2 p k)) (fun k => W (ix2 q k)) := rfl

/-- A layer reads only one row of each argument: if row `j 0` of a block `xb` is row `i 0` of `X` and row `j 1` of a
    block `wb` is row `i 1` of `W`, the layer of the blocks at `j` is the layer of the arrays at `i`. -/
theorem conj_block {A' B' : ℕ} (X : (⟨2, ![A, K]⟩ : Shape).Idx → EReal) (W : (⟨2, ![B, K]⟩ : Shape).Idx → EReal)
    (xb : (⟨2, ![A', K]⟩ : Shape).Idx → EReal) (wb : (⟨2, ![B', K]⟩ : Shape).Idx → EReal)
    (j : (⟨2, ![A', B']⟩ : Shape).Idx) (i : (⟨2, ![A, B]⟩ : Shape).Idx)
    (hx : ∀ k : Fin K, xb (ix2 (j 0) k) = X (ix2 (i 0) k)) (hw : ∀ k : Fin K, wb (ix2 (j 1) k) = W (ix2 (i 1) k)) :
    conj xb wb j = conj X W i :=
  congrArg₂ conjRow (funext hx) (funext hw)

theorem disj_block {A' B' : ℕ} (X : (⟨2, ![A, K]⟩ : Shape).Idx → EReal) (W : (⟨2, ![B, K]⟩ : Shape).Idx → EReal)
    (xb : (⟨2, ![A', K]⟩ : Shape).Idx → EReal) (wb : (⟨2, ![B', K]⟩ : Shape).Idx → EReal)
    (j : (⟨2, ![A', B']⟩ : Shape).Idx) (i : (⟨2, ![A, B]⟩ : Shape).Idx)
    (hx : ∀ k : Fin K, xb (ix2 (j 0) k) = X (ix2 (i 0) k)) (hw : ∀ k : Fin K, wb (ix2 (j 1) k) = W (ix2 (i 1) k)) :
    disj xb wb j = disj X W i :=
  congrArg₂ disjRow (funext hx) (funext hw)

end Cert.DnfLayer

end
-- ==== Proof.LibAbsMul.lean ====
import Mathlib.Data.EReal.Inv

/-!
# The absolute value `max x (-x)` on the extended reals is multiplicative

On the extended reals write `|x|` for `max x (-x)`. Then `|x · y| = |x| · |y|` for ALL `x`, `y`, the infinities and
zero included (`0 · ±∞ = 0` on both sides): by the signs of the two factors, a product of two nonnegative extended reals
being nonnegative and the sign coming out of a product on either side. No finiteness assumption is needed. General:
nothing here depends on a particular program.
-/

namespace Cert.LibAbsMul

/-- `|x| = x` for `0 ≤ x`. -/
theorem max_neg_of_nonneg {x : EReal} (h : 0 ≤ x) : max x (-x) = x :=
  max_eq_left ((EReal.neg_le_zero.mpr h).trans h)

/-- `|x| = -x` for `x ≤ 0`. -/
theorem max_neg_of_nonpos {x : EReal} (h : x ≤ 0) : max x (-x) = -x :=
  max_eq_right (h.trans (EReal.neg_nonneg.mpr h))

/-- `|x · y| = |x| · |y|` on the extended reals. -/
theorem max_neg_mul (x y : EReal) : max (x * y) (-(x * y)) = max x (-x) * max y (-y) := by
  rcases le_total 0 x with hx | hx <;> rcases le_total 0 y with hy | hy
  · rw [max_neg_of_nonneg hx, max_neg_of_nonneg hy, max_neg_of_nonneg (EReal.mul_nonneg hx hy)]
  · have h : x * y ≤ 0 := by
      have h' := EReal.mul_nonneg hx (EReal.neg_nonneg.mpr hy)
      rw [mul_neg] at h'
      exact EReal.neg_nonneg.mp h'
    rw [max_neg_of_nonneg hx, max_neg_of_nonpos hy, max_neg_of_nonpos h, mul_neg]
  · have h : x * y ≤ 0 := by
      have h' := EReal.mul_nonneg (EReal.neg_nonneg.mpr hx) hy
      rw [neg_mul] at h'
      exact EReal.neg_nonneg.mp h'
    rw [max_neg_of_nonpos hx, max_neg_of_nonneg hy, max_neg_of_nonpos h, neg_mul]
  · have h : 0 ≤ x * y := by
      have h' := EReal.mul_nonneg (EReal.neg_nonneg.mpr hx) (EReal.neg_nonneg.mpr hy)
      rwa [neg_mul_neg] at h'
    rw [max_neg_of_nonpos hx, max_neg_of_nonpos hy, max_neg_of_nonneg h, neg_mul_neg]

end Cert.LibAbsMul
-- ==== Proof.LibHostMaxMid.lean ====
import Idealize.ShloMosaic.Lib.ValueIdx
import Idealize.ShloMosaic.PureOps.Ideal.Laws
import Idealize.ShloMosaic.PureOps.Reduce

/-!
# A host maximum over the MIDDLE axis of a rank-3 array, read at an index

On the extended reals a host reduction with a `maximum` body over axis 1 of an `[A, K, B]` array, started from the f32
pattern of `-∞`, is at `(p, q)` the maximum from `⊥` over `k < K` of the entries `(p, k, q)`: the reduced index with
the dropped coordinate put back is `(p, k, q)`, and the f32 pattern `0xFF800000` denotes `⊥`. (What
`jnp.max(t, axis=1)` of a rank-3 array lowers to.) General: nothing here depends on a particular program.
-/

noncomputable section

namespace Cert.LibHostMaxMid

open Idealize.ShloMosaic Idealize.ShloMosaic.ValueIdx

/-- The f32 pattern of `-∞` is the bottom of the extended reals. -/
theorem negInf_eq_bot : Ideal.ofBits .f32 0xFF800000#32 = (⊥ : EReal) := by
  simp [Ideal.ofBits, Ideal.ieee]

/-- The reduced index `(p, q)` with the middle coordinate `k` put back is `(p, k, q)`. -/
theorem lift_mid {A K B : ℕ} (h : (⟨3, ![A, K, B]⟩ : Shape).Reduces [1] (⟨2, ![A, B]⟩ : Shape)) (p : Fin A) (q : Fin B)
    (k : Fin ((⟨3, ![A, K, B]⟩ : Shape).size 1)) :
    h.lift (ix2 p q) k = ix3 p (⟨k.val, k.isLt⟩ : Fin K) q := by
  funext c; apply Fin.ext
  fin_cases c <;> rfl

/-- The host's maximum over the middle axis from `-∞`, at `(p, q)`: the maximum from `⊥` of the entries `(p, k, q)`. -/
theorem hostMax_mid_apply {A K B : ℕ} (x : FVec Ideal (⟨3, ![A, K, B]⟩ : Shape) .f32)
    (h' : (⟨3, ![A, K, B]⟩ : Shape).ReducesTo [1] (⟨2, ![A, B]⟩ : Shape))
    (h : (⟨3, ![A, K, B]⟩ : Shape).Reduces [1] (⟨2, ![A, B]⟩ : Shape))
    (hu : 0 < (⟨0, ![]⟩ : Shape).numel) (p : Fin A) (q : Fin B) :
    Host.reduce FloatOps.maximumf x (constant (F := Ideal) (⟨0, ![]⟩ : Shape) .f32 0xFF800000#32) h' hu (ix2 p q)
      = (Finset.univ : Finset (Fin K)).fold max (⊥ : EReal) fun k => x (ix3 p k q) := by
  rw [Host.reduce_eq_fold_single FloatOps.maximumf x _ h' h hu]
  have hf : (x ∘ h.lift (ix2 p q)) = fun k : Fin K => x (ix3 p k q) := funext fun k => congrArg x (lift_mid h p q k)
  have hb : (constant (F := Ideal) (⟨0, ![]⟩ : Shape) .f32 0xFF800000#32) (Shape.Idx.first hu) = (⊥ : EReal) := negInf_eq_bot
  rw [hb]
  exact congrArg (fun f => Finset.fold max (⊥ : EReal) f (Finset.univ : Finset (Fin K))) hf

end Cert.LibHostMaxMid

end
-- ==== Proof.RefLayers.lean ====
import proofs.«134802_j21912923144502_1_alg».proof.Proof.Gen.ReferenceIdeal.Read
import proofs.«134802_j21912923144502_1_alg».proof.Proof.DnfLayer
import proofs.«134802_j21912923144502_1_alg».proof.Proof.LibAbsMul
import proofs.«134802_j21912923144502_1_alg».proof.Proof.LibHostMaxMid

/-!
# The reference computes the two layers

The reference forms the rank-3 array of sizes `|x_{p,k} · W_{q,k}|` at `(p, k, q)` and reduces its middle axis twice, by
`max` from `-∞` and by `+` from `0`; the product `x · Wᵀ` is a contraction over `k` of `x` with the transposed
weights. Since `|s · t| = |s| · |t|` on the extended reals, these are the largest size, the sum of sizes and the
product of row `p` of `x` with row `q` of `W`, so the first half of the reference is the conjunction layer of the
arguments and the second half the disjunction layer of the first half's result.
-/

noncomputable section

namespace Cert.ReferenceIdeal.Layers

open Cert.ReferenceIdeal Cert.ReferenceIdeal.Gen Cert.ReferenceIdeal.Read
open Idealize.ShloMosaic Idealize.ShloMosaic.ValueIdx Cert.DnfLayer

/-! ## The first layer: activations `[1024, 512]`, weights `[512, 512]` -/

/-- The array of sizes at `(p, k, q)`: `|x_{p,k}| · |W_{q,k}|`. -/
theorem sizes1_apply (x0 : (⟨S1024x512, .f32⟩ : BufTy).Contents (Elt Ideal)) (x1 : (⟨S512x512, .f32⟩ : BufTy).Contents (Elt Ideal))
    (p : Fin 1024) (k : Fin 512) (q : Fin 512) :
    val_main_v6 (F := Ideal) x0 x1 (ix3 p k q) = size (x0 (ix2 p k)) * size (x1 (ix2 q k)) := by
  rw [val_main_v6_apply, val_main_v5_apply, val_main_v3_apply, val_main_v0_apply, val_main_v4_apply, val_main_v2_apply,
    val_main_v1_apply]
  have e0 : idx_main_v0 (idx_main_v3 (ix3 p k q)) = ix2 p k := funext fun a => Fin.ext (by match a with | ⟨0, _⟩ => rfl | ⟨1, _⟩ => rfl)
  have e1 : idx_main_v1 (idx_main_v2 (idx_main_v4 (ix3 p k q))) = ix2 q k := funext fun a => Fin.ext (by match a with | ⟨0, _⟩ => rfl | ⟨1, _⟩ => rfl)
  rw [e0, e1]
  exact LibAbsMul.max_neg_mul _ _

/-- The sum over the middle axis from zero is the sum of sizes of the two rows. -/
theorem sum1_apply (x0 : (⟨S1024x512, .f32⟩ : BufTy).Contents (Elt Ideal)) (x1 : (⟨S512x512, .f32⟩ : BufTy).Contents (Elt Ideal))
    (p : Fin 1024) (q : Fin 512) :
    val_main_v8 (F := Ideal) x0 x1 (ix2 p q) = sumSize (fun k => x0 (ix2 p k)) (fun k => x1 (ix2 q k)) := by
  rw [val_main_v8_apply]
  have hz : (val_main_cst_0 (F := Ideal)) (Shape.Idx.first h_S_) = (0 : EReal) := Ideal.ofBits_zero_f32
  rw [hz, zero_add]
  unfold sumSize
  refine Finset.sum_congr rfl fun k _ => ?_
  have e : idx_main_v8 (ix2 p q) k = ix3 p k q := funext fun a => Fin.ext (by match a with | ⟨0, _⟩ => rfl | ⟨1, _⟩ => rfl | ⟨2, _⟩ => rfl)
  rw [e, sizes1_apply]

/-- The maximum over the middle axis from `-∞` is the largest size of the two rows. -/
theorem max1_apply (x0 : (⟨S1024x512, .f32⟩ : BufTy).Contents (Elt Ideal)) (x1 : (⟨S512x512, .f32⟩ : BufTy).Contents (Elt Ideal))
    (p : Fin 1024) (q : Fin 512) :
    val_main_v7 (F := Ideal) x0 x1 (ix2 p q) = maxSize (fun k => x0 (ix2 p k)) (fun k => x1 (ix2 q k)) := by
  unfold val_main_v7 val_main_cst
  refine (LibHostMaxMid.hostMax_mid_apply _ reducesTo_S1024x512x512_S1024x512_d1 (by decide) h_S_ p q).trans ?_
  unfold maxSize
  exact congrArg (fun f => Finset.fold max (⊥ : EReal) f (Finset.univ : Finset (Fin 512)))
    (funext fun k => sizes1_apply x0 x1 p k q)

/-- The contraction with the transposed weights is the product of the two rows. -/
theorem product1_apply (x0 : (⟨S1024x512, .f32⟩ : BufTy).Contents (Elt Ideal)) (x1 : (⟨S512x512, .f32⟩ : BufTy).Contents (Elt Ideal))
    (p : Fin 1024) (q : Fin 512) :
    val_main_v11 (F := Ideal) x0 x1 (ix2 p q) = product (fun k => x0 (ix2 p k)) (fun k => x1 (ix2 q k)) := by
  rw [val_main_v11_apply]
  unfold product
  refine Finset.sum_congr rfl fun k _ => ?_
  rw [val_main_v10_apply]
  have el : lidx_main_v11 (ix2 p q) k = ix2 p k := funext fun a => Fin.ext (by match a with | ⟨0, _⟩ => rfl | ⟨1, _⟩ => rfl)
  have er : idx_main_v10 (ridx_main_v11 (ix2 p q) k) = ix2 q k := funext fun a => Fin.ext (by match a with | ⟨0, _⟩ => rfl | ⟨1, _⟩ => rfl)
  rw [el, er]

/-- The reference's first half is the conjunction layer of its first two arguments. -/
theorem conj_eq (x0 : (⟨S1024x512, .f32⟩ : BufTy).Contents (Elt Ideal)) (x1 : (⟨S512x512, .f32⟩ : BufTy).Contents (Elt Ideal)) :
    val_main_v15 (F := Ideal) x0 x1 = conj x0 x1 := by
  funext i
  obtain ⟨p, q, rfl⟩ : ∃ (p : Fin 1024) (q : Fin 512), i = ix2 p q := ⟨i 0, i 1, eq_ix2 i⟩
  rw [conj_ix2, val_main_v15_apply, val_main_v14_apply, val_main_v13_apply, val_main_v9_apply, val_main_v12_apply,
    val_main_cst_1_apply, product1_apply, max1_apply, sum1_apply]
  rfl

/-! ## The second layer: activations the first layer's result `[1024, 512]`, weights `[128, 512]` -/

/-- The array of sizes at `(p, k, q)`: `|h_{p,k}| · |W_{q,k}|`, `h` the first layer's result. -/
theorem sizes2_apply (x0 : (⟨S1024x512, .f32⟩ : BufTy).Contents (Elt Ideal)) (x1 : (⟨S512x512, .f32⟩ : BufTy).Contents (Elt Ideal))
    (x2 : (⟨S128x512, .f32⟩ : BufTy).Contents (Elt Ideal)) (p : Fin 1024) (k : Fin 512) (q : Fin 128) :
    val_main_v22 (F := Ideal) x0 x1 x2 (ix3 p k q)
      = size (val_main_v15 (F := Ideal) x0 x1 (ix2 p k)) * size (x2 (ix2 q k)) := by
  rw [val_main_v22_apply, val_main_v21_apply, val_main_v19_apply, val_main_v16_apply, val_main_v20_apply, val_main_v18_apply,
    val_main_v17_apply]
  have e0 : idx_main_v16 (idx_main_v19 (ix3 p k q)) = ix2 p k := funext fun a => Fin.ext (by match a with | ⟨0, _⟩ => rfl | ⟨1, _⟩ => rfl)
  have e1 : idx_main_v17 (idx_main_v18 (idx_main_v20 (ix3 p k q))) = ix2 q k := funext fun a => Fin.ext (by match a with | ⟨0, _⟩ => rfl | ⟨1, _⟩ => rfl)
  rw [e0, e1]
  exact LibAbsMul.max_neg_mul _ _

theorem sum2_apply (x0 : (⟨S1024x512, .f32⟩ : BufTy).Contents (Elt Ideal)) (x1 : (⟨S512x512, .f32⟩ : BufTy).Contents (Elt Ideal))
    (x2 : (⟨S128x512, .f32⟩ : BufTy).Contents (Elt Ideal)) (p : Fin 1024) (q : Fin 128) :
    val_main_v24 (F := Ideal) x0 x1 x2 (ix2 p q)
      = sumSize (fun k => val_main_v15 (F := Ideal) x0 x1 (ix2 p k)) (fun k => x2 (ix2 q k)) := by
  rw [val_main_v24_apply]
  have hz : (val_main_cst_3 (F := Ideal)) (Shape.Idx.first h_S_) = (0 : EReal) := Ideal.ofBits_zero_f32
  rw [hz, zero_add]
  unfold sumSize
  refine Finset.sum_congr rfl fun k _ => ?_
  have e : idx_main_v24 (ix2 p q) k = ix3 p k q := funext fun a => Fin.ext (by match a with | ⟨0, _⟩ => rfl | ⟨1, _⟩ => rfl | ⟨2, _⟩ => rfl)
  rw [e, sizes2_apply]

theorem max2_apply (x0 : (⟨S1024x512, .f32⟩ : BufTy).Contents (Elt Ideal)) (x1 : (⟨S512x512, .f32⟩ : BufTy).Contents (Elt Ideal))
    (x2 : (⟨S128x512, .f32⟩ : BufTy).Contents (Elt Ideal)) (p : Fin 1024) (q : Fin 128) :
    val_main_v23 (F := Ideal) x0 x1 x2 (ix2 p q)
      = maxSize (fun k => val_main_v15 (F := Ideal) x0 x1 (ix2 p k)) (fun k => x2 (ix2 q k)) := by
  unfold val_main_v23 val_main_cst_2
  refine (LibHostMaxMid.hostMax_mid_apply _ reducesTo_S1024x512x128_S1024x128_d1 (by decide) h_S_ p q).trans ?_
  unfold maxSize
  exact congrArg (fun f => Finset.fold max (⊥ : EReal) f (Finset.univ : Finset (Fin 512)))
    (funext fun k => sizes2_apply x0 x1 x2 p k q)

theorem product2_apply (x0 : (⟨S1024x512, .f32⟩ : BufTy).Contents (Elt Ideal)) (x1 : (⟨S512x512, .f32⟩ : BufTy).Contents (Elt Ideal))
    (x2 : (⟨S128x512, .f32⟩ : BufTy).Contents (Elt Ideal)) (p : Fin 1024) (q : Fin 128) :
    val_main_v27 (F := Ideal) x0 x1 x2 (ix2 p q)
      = product (fun k => val_main_v15 (F := Ideal) x0 x1 (ix2 p k)) (fun k => x2 (ix2 q k)) := by
  rw [val_main_v27_apply]
  unfold product
  refine Finset.sum_congr rfl fun k _ => ?_
  rw [val_main_v26_apply]
  have el : lidx_main_v27 (ix2 p q) k = ix2 p k := funext fun a => Fin.ext (by match a with | ⟨0, _⟩ => rfl | ⟨1, _⟩ => rfl)
  have er : idx_main_v26 (ridx_main_v27 (ix2 p q) k) = ix2 q k := funext fun a => Fin.ext (by match a with | ⟨0, _⟩ => rfl | ⟨1, _⟩ => rfl)
  rw [el, er]

/-- The reference's result is the disjunction layer of its first half's result and the third argument. -/
theorem disj_eq (x0 : (⟨S1024x512, .f32⟩ : BufTy).Contents (Elt Ideal)) (x1 : (⟨S512x512, .f32⟩ : BufTy).Contents (Elt Ideal))
    (x2 : (⟨S128x512, .f32⟩ : BufTy).Contents (Elt Ideal)) :
    val_main_v30 (F := Ideal) x0 x1 x2 = disj (val_main_v15 (F := Ideal) x0 x1) x2 := by
  funext i
  obtain ⟨p, q, rfl⟩ : ∃ (p : Fin 1024) (q : Fin 128), i = ix2 p q := ⟨i 0, i 1, eq_ix2 i⟩
  rw [disj_ix2, val_main_v30_apply, val_main_v29_apply, val_main_v25_apply, val_main_v28_apply, val_main_cst_4_apply,
    product2_apply, sum2_apply, max2_apply]
  rfl

/-- The reference's result as the two layers of the arguments. -/
theorem result_eq (x0 : (⟨S1024x512, .f32⟩ : BufTy).Contents (Elt Ideal)) (x1 : (⟨S512x512, .f32⟩ : BufTy).Contents (Elt Ideal))
    (x2 : (⟨S128x512, .f32⟩ : BufTy).Contents (Elt Ideal)) :
    val_main_v30 (F := Ideal) x0 x1 x2 = disj (conj x0 x1) x2 := by
  rw [disj_eq, conj_eq]

end Cert.ReferenceIdeal.Layers

end
-- ==== Proof.LibProductAtT.lean ====
/-
  A matrix product whose right factor is used transposed, read at an index.

  Dimension numbers of a product [A, K] × [B, K] → [A, B] that contract axis 1 of BOTH factors, with no batch axis, index
  the two factors at the result index (p, q) and the contraction index k by (p, k) and (q, k). So any sum over the
  contraction index — a tile product into an accumulator, a host dot_general — is the sum over k < K of
  l (p, k) · r (q, k): it reads row p of the left factor and ROW q of the right one (x · Wᵀ with W stored [out, in]).
  General: nothing here depends on a particular program. An instance supplies the two kept coordinates (hl0, hr0: each
  is "unfold DotDims.lhsIdx; rw [dif_neg …, dif_pos …]; rfl" for literal dimension numbers) and rfl four times.
-/
import Idealize.ShloMosaic.Lib.ValueIdx
import Idealize.ShloMosaic.PureOps.Ideal.Laws

noncomputable section

namespace Cert.LibProductAtT

open Idealize.ShloMosaic Idealize.ShloMosaic.ValueIdx

/-- THE SUM, RE-INDEXED. Dimension numbers that contract axis 1 of both factors and keep axis 0 of the left factor as
    the result's rows and axis 0 of the right factor as its columns (hl0, hr0): the sum over the contraction index is
    the sum over k < K of l (p, k) · r (q, k) at the result index (p, q). -/
theorem product_sum_eq {A B K : Nat} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    ∑ c : d.contr.Idx, l (d.lhsIdx (ix2 p q) c) * r (d.rhsIdx (ix2 p q) c) = ∑ k : Fin K, l (ix2 p k) * r (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 _ _
      | ⟨1, _⟩ => exact (d.lhsIdx_val_of_single hlc _ _).trans hk)
  have er : d.rhsIdx (ix2 p q) ((contrEquiv1 d K hr hs).symm k) = ix2 q k :=
    funext fun a => Fin.ext (by
      match a with
      | ⟨0, _⟩ => exact hr0 _ _
      | ⟨1, _⟩ => exact (d.rhsIdx_val_of_single hrc _ _).trans hk)
  rw [el, er]

/-- A tile product into an accumulator, at (p, q): acc (p, q) + Σ_k l (p, k) · r (q, k). -/
theorem matmul_apply {A B K : Nat} {φ₁ φ₂ : FTy}
    (d : DotDims (⟨2, ![A, K]⟩ : Shape) (⟨2, ![B, K]⟩ : Shape) (⟨2, ![A, B]⟩ : Shape)) (prec : Option ContractPrecision)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂)
    (acc : FVec Ideal (⟨2, ![A, B]⟩ : Shape) .f32) (p : Fin A) (q : Fin B) :
    FloatOps.matmul d prec l r acc (ix2 p q) = acc (ix2 p q) + ∑ k : Fin K, l (ix2 p k) * r (ix2 q k) := by
  rw [Ideal.matmul_apply, product_sum_eq d hr hs hlc hrc hl0 hr0]

/-- A tile product into the zero accumulator, at (p, q): Σ_k l (p, k) · r (q, k). -/
theorem matmul_zero_apply {A B K : Nat} {φ₁ φ₂ : FTy}
    (d : DotDims (⟨2, ![A, K]⟩ : Shape) (⟨2, ![B, K]⟩ : Shape) (⟨2, ![A, B]⟩ : Shape)) (prec : Option ContractPrecision)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, product_sum_eq d hr hs hlc hrc hl0 hr0]

/-- A host dot_general with these dimension numbers, at (p, q): Σ_k l (p, k) · r (q, k). -/
theorem dotGeneral_apply {A B K : Nat} {φ₁ φ₂ : FTy}
    (d : DotDims (⟨2, ![A, K]⟩ : Shape) (⟨2, ![B, K]⟩ : Shape) (⟨2, ![A, B]⟩ : Shape)) (prec : Option ContractPrecision)
    (sched : HostSchedule)
    (hr : d.contr.rank = 1) (hs : d.contr.size ⟨0, by omega⟩ = K)
    (hlc : d.lhsContracting = [(1 : Fin 2)]) (hrc : d.rhsContracting = [(1 : Fin 2)])
    (hl0 : ∀ (j : (⟨2, ![A, B]⟩ : Shape).Idx) (c : d.contr.Idx), (d.lhsIdx j c 0).val = (j 0).val)
    (hr0 : ∀ (j : (⟨2, ![A, B]⟩ : Shape).Idx) (c : d.contr.Idx), (d.rhsIdx j c 0).val = (j 1).val)
    (l : FVec Ideal (⟨2, ![A, K]⟩ : Shape) φ₁) (r : FVec Ideal (⟨2, ![B, K]⟩ : Shape) φ₂) (p : Fin A) (q : Fin B) :
    FloatOps.dotGeneral d prec sched l r (ix2 p q) = ∑ k : Fin K, l (ix2 p k) * r (ix2 q k) := by
  rw [Ideal.dotGeneral_apply, product_sum_eq d hr hs hlc hrc hl0 hr0]

end Cert.LibProductAtT

end
-- ==== Proof.LibAxes.lean ====
/-
  Layout operations read at an index given by coordinates, for the shapes a broadcast-add of two matrices over a new
  middle axis and a product over the merged leading axes go through:

  • a MIDDLE unit axis added by a shape cast, `[a, c] → [a, 1, c]` (`shapeCast_ac_a1c_apply`);
  • a broadcast along a middle unit axis, `[a, 1, c] → [a, b, c]` (`broadcastTo_a1c_abc_apply`), and along a
    leading unit axis, `[1, b, c] → [a, b, c]` (`broadcastTo_1bc_abc_apply`);
  • the two leading axes MERGED by a shape cast, `[a, b, c] → [n, c]` with `n = a · b`, and split again,
    `[n, c] → [a, b, c]`: row `r = i · b + j` of the matrix is entry `(i, j)` of the stack
    (`shapeCast_abc_nc_apply`, `shapeCast_nc_abc_apply`); the merged row is passed as its own `Fin n` with the
    equation `r = i · b + j`, so that a literal extent such as `2048` need not be recognised as a product;
  • a vector laid out as `[1, 1, c]` and broadcast to `[a, b, c]` (`shapeCast_c_11c_apply`,
    `broadcastTo_11c_abc_apply`): the bias row added to every entry of a stack of matrices.

  Each is the library's `shapeCast_apply` / `broadcastTo_apply` with the row-major or per-axis arithmetic done,
  for indices written `ix1 … ix3`. Library imports only.
-/
import Idealize.ShloMosaic.Lib.Pipeline.Value
import Idealize.ShloMosaic.Lib.ValueIdx

namespace Cert.LibAxes

open Idealize.ShloMosaic Idealize.ShloMosaic.ValueIdx

variable {α : Type}

/-- An `[a, c]` matrix cast to `[a, 1, c]` reads, at `(i, z, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, c]` stack cast to an `[n, c]` matrix reads, at row `r = i · b + j` and column `k`, the stack at
    `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` matrix cast to an `[a, b, c]` stack reads, at `(i, j, k)`, the matrix at row `r = i · b + j`,
    column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[c]` vector cast to `[1, 1, c]` reads, at `(z, z', k)`, the vector at `k`. -/
theorem shapeCast_c_11c_apply {c : ℕ} (x : (⟨1, ![c]⟩ : Shape).Idx → α)
    (h : (⟨1, ![c]⟩ : Shape).ShapeCasts ⟨3, ![1, 1, c]⟩) (z z' : Fin 1) (k : Fin c) :
    shapeCast ⟨3, ![1, 1, c]⟩ x h (ix3 z z' k) = x (ix1 k) :=
  shapeCast_apply x h _ _ (by
    have hz : z.val = 0 := by omega
    have hz' : z'.val = 0 := by omega
    rw [Shape.rowMajor_val_three, Shape.rowMajor_val_one]
    show k.val = (z.val * 1 + z'.val) * c + k.val
    rw [hz, hz']
    simp)

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibAxes
-- ==== Proof.LibLaneMax.lean ====
import Idealize.ShloMosaic.Lib.Pipeline.Value
import Idealize.ShloMosaic.Lib.ValueIdx
import Idealize.ShloMosaic.PureOps.Ideal.Laws

/-!
# A maximum over the LAST axis of a rank-3 vector, read at an index

On the extended reals a `vector.multi_reduction <maximumf>` over axis 2 of an `[A, B, C]` vector, started from the f32
pattern of `-∞`, is at `(p, q)` the maximum from `⊥` over `l < C` of the entries `(p, q, l)` (`laneMax_apply`): the
reduced index with the dropped coordinate put back is `(p, q, l)` (`lift_last`) and the pattern `0xFF800000` denotes
`⊥`. With it, the layout step that lets a `[b, c]` matrix be broadcast along a NEW LEADING axis: the cast
`[b, c] → [1, b, c]` read at `(0, j, k)` is the matrix at `(j, k)` (`shapeCast_bc_1bc_apply`). General: nothing here
depends on a particular program.
-/

noncomputable section

namespace Cert.LibLaneMax

open Idealize.ShloMosaic Idealize.ShloMosaic.ValueIdx

/-- The f32 pattern of `-∞` is the bottom of the extended reals. -/
theorem negInf_eq_bot : Ideal.ofBits .f32 0xFF800000#32 = (⊥ : EReal) := by
  simp [Ideal.ofBits, Ideal.ieee]

/-- The reduced index `(p, q)` with the last coordinate `l` put back is `(p, q, l)`. -/
theorem lift_last {A B C : ℕ} (h : (⟨3, ![A, B, C]⟩ : Shape).Reduces [2] (⟨2, ![A, B]⟩ : Shape)) (p : Fin A) (q : Fin B)
    (l : Fin ((⟨3, ![A, B, C]⟩ : Shape).size 2)) :
    h.lift (ix2 p q) l = ix3 p q (⟨l.val, l.isLt⟩ : Fin C) := by
  funext c; apply Fin.ext
  fin_cases c <;> rfl

/-- A maximum over the last axis from `-∞`, at `(p, q)`: the maximum from `⊥` of the entries `(p, q, l)`. -/
theorem laneMax_apply {A B C : ℕ} (src : FVec Ideal (⟨3, ![A, B, C]⟩ : Shape) .f32)
    (h : (⟨3, ![A, B, C]⟩ : Shape).Reduces [2] (⟨2, ![A, B]⟩ : Shape)) (hφ : FKind.Formats .f32)
    (hacc : (0xFF800000#32 : BitVec 32) = FKind.maximumf.neutral .f32 hφ) (p : Fin A) (q : Fin B) :
    multiReduction .maximumf [2] (⟨2, ![A, B]⟩ : Shape) src 0xFF800000#32 h hφ hacc (ix2 p q)
      = (Finset.univ : Finset (Fin C)).fold max (⊥ : EReal) fun l => src (ix3 p q l) := by
  rw [Ideal.multiReduction_maximumf_single src _ h hφ hacc (ix2 p q)]
  have hf : (src ∘ h.lift (ix2 p q)) = fun l : Fin C => src (ix3 p q l) :=
    funext fun l => congrArg src (lift_last h p q l)
  have hb : FloatOps.ofBits (F := Ideal) .f32 0xFF800000#32 = (⊥ : EReal) := negInf_eq_bot
  rw [hb]
  exact congrArg (fun f => Finset.fold max (⊥ : EReal) f (Finset.univ : Finset (Fin C))) hf

/-- A `[b, c]` matrix cast to `[1, b, c]` reads, at `(z, j, k)`, the matrix at `(j, k)`. -/
theorem shapeCast_bc_1bc_apply {α : Type} {b c : ℕ} (x : (⟨2, ![b, c]⟩ : Shape).Idx → α)
    (h : (⟨2, ![b, c]⟩ : Shape).ShapeCasts ⟨3, ![1, b, c]⟩) (z : Fin 1) (j : Fin b) (k : Fin c) :
    shapeCast ⟨3, ![1, b, c]⟩ x h (ix3 z j k) = x (ix2 j k) :=
  shapeCast_apply x h _ _ (by
    have hz : z.val = 0 := by omega
    rw [Shape.rowMajor_val_three, Shape.rowMajor_val_two]
    show j.val * c + k.val = (z.val * b + j.val) * c + k.val
    rw [hz, Nat.zero_mul, Nat.zero_add])

end Cert.LibLaneMax

end
-- ==== Proof.LibChunkedMax.lean ====
import Mathlib.Data.Finset.Fold
import Mathlib.Data.Fintype.Basic
import Mathlib.Order.Lattice

/-!
# A maximum over `4 · q` terms taken chunk by chunk

In a linear order, the maximum from `b` of `N = 4 · q` terms is the running maximum, started at `b`, of the four
maxima (each again from `b`) over the consecutive chunks of `q` terms: both sides are below a bound `c` exactly when
`b` and every term are. This is how a reduction over a long axis is taken when the axis is swept in four slices and
the partial results are joined by `max`. General: nothing here depends on a particular program.
-/

namespace Cert.LibChunkedMax

/-- The maximum from `b` over `Fin N`, `N = 4 · q`, is the running maximum from `b` of the four chunk maxima. -/
theorem fold_max_four_chunks {α : Type} [LinearOrder α] {N : ℕ} (q : ℕ) (hN : N = 4 * q) (b : α) (f : Fin N → α) :
    max (max (max (max b
        ((Finset.univ : Finset (Fin q)).fold max b fun l => f ⟨0 * q + l.val, by have := l.isLt; omega⟩))
        ((Finset.univ : Finset (Fin q)).fold max b fun l => f ⟨1 * q + l.val, by have := l.isLt; omega⟩))
        ((Finset.univ : Finset (Fin q)).fold max b fun l => f ⟨2 * q + l.val, by have := l.isLt; omega⟩))
        ((Finset.univ : Finset (Fin q)).fold max b fun l => f ⟨3 * q + l.val, by have := l.isLt; omega⟩)
      = (Finset.univ : Finset (Fin N)).fold max b f := by
  refine eq_of_forall_ge_iff fun c => ?_
  simp only [max_le_iff, Finset.fold_max_le, Finset.mem_univ, forall_true_left]
  constructor
  · rintro ⟨⟨⟨⟨hb, -, h0⟩, -, h1⟩, -, h2⟩, -, h3⟩
    refine ⟨hb, fun k => ?_⟩
    have hk := k.isLt
    by_cases c0 : k.val < q
    · have e := h0 ⟨k.val, c0⟩
      have : (⟨0 * q + k.val, by omega⟩ : Fin N) = k := Fin.ext (by simp)
      rwa [this] at e
    by_cases c1 : k.val < 2 * q
    · have e := h1 ⟨k.val - q, by omega⟩
      have : (⟨1 * q + (k.val - q), by omega⟩ : Fin N) = k := Fin.ext (by simp; omega)
      rwa [this] at e
    by_cases c2 : k.val < 3 * q
    · have e := h2 ⟨k.val - 2 * q, by omega⟩
      have : (⟨2 * q + (k.val - 2 * q), by omega⟩ : Fin N) = k := Fin.ext (by simp; omega)
      rwa [this] at e
    · have e := h3 ⟨k.val - 3 * q, by omega⟩
      have : (⟨3 * q + (k.val - 3 * q), by omega⟩ : Fin N) = k := Fin.ext (by simp; omega)
      rwa [this] at e
  · rintro ⟨hb, h⟩
    exact ⟨⟨⟨⟨hb, hb, fun l => h _⟩, hb, fun l => h _⟩, hb, fun l => h _⟩, hb, fun l => h _⟩

end Cert.LibChunkedMax
-- ==== Proof.KernelPayload.lean ====
import proofs.«134802_j21912923144502_1_alg».proof.Proof.Gen.KernelIdeal.Skeleton
import proofs.«134802_j21912923144502_1_alg».proof.Proof.DnfLayer
import proofs.«134802_j21912923144502_1_alg».proof.Proof.LibProductAtT
import proofs.«134802_j21912923144502_1_alg».proof.Proof.LibAxes
import proofs.«134802_j21912923144502_1_alg».proof.Proof.LibLaneMax
import proofs.«134802_j21912923144502_1_alg».proof.Proof.LibChunkedMax
import Idealize.ShloMosaic.Lib.Pipeline.Value
import Idealize.ShloMosaic.Lib.ValueIdx
import Idealize.ShloMosaic.PureOps.Ideal.Laws

/-!
# What a kernel body stores, as a function of its two loaded blocks

Both bodies load a block `a : [256, 512]` of activations and a block `b : [128, 512]` of weights and store a
`[256, 128]` block. At `(p, q)` the two tile products into a zero accumulator are `Σ_k a_{p,k} · b_{q,k}` and
`Σ_k |a_{p,k}| · |b_{q,k}|`: they read row `p` of `a` and ROW `q` of `b`. The largest size is swept in four slices of
128 columns: slice `c` lays rows of `|a|` out as `[256, 1, 128]` and rows of `|b|` as `[1, 128, 128]`, broadcasts both to
`[256, 128, 128]`, multiplies, and takes the maximum over the last axis from `-∞`; the four results are joined by a running
`max` that itself starts at `-∞`. That running maximum is the maximum from `-∞` over all 512 columns. So the first body
stores the conjunction layer of its two blocks and the second the disjunction layer.
-/

noncomputable section

namespace Cert.KernelIdeal.Payload

open Cert.KernelIdeal Cert.KernelIdeal.Gen
open Idealize.ShloMosaic Idealize.ShloMosaic.ValueIdx Cert.DnfLayer

/-- The dimension numbers of both tile products: contract axis 1 of both factors. -/
abbrev D : DotDims S256x512 S128x512 S256x128 := dot_S256x512_S128x512_S256x128_1_1_0_0_n_n

theorem D_l0 (j : S256x128.Idx) (c : D.contr.Idx) : (D.lhsIdx j c 0).val = (j 0).val := by
  unfold DotDims.lhsIdx
  rw [dif_neg (show ¬(0 : Fin S256x512.rank) ∈ D.lhsBatch by decide),
    dif_pos (show (0 : Fin S256x512.rank) ∈ D.lhsNonContracting by decide)]
  rfl

theorem D_r0 (j : S256x128.Idx) (c : D.contr.Idx) : (D.rhsIdx j c 0).val = (j 1).val := by
  unfold DotDims.rhsIdx
  rw [dif_neg (show ¬(0 : Fin S128x512.rank) ∈ D.rhsBatch by decide),
    dif_pos (show (0 : Fin S128x512.rank) ∈ D.rhsNonContracting by decide)]
  rfl

/-- A tile product into the zero accumulator at `(p, q)`: row `p` of `a` against row `q` of `b`. -/
theorem rows_product (a : FVec Ideal S256x512 .f32) (b : FVec Ideal S128x512 .f32) (p : Fin 256) (q : Fin 128) :
    matmul D none a b (constant S256x128 .f32 0x00000000#32) (ix2 p q) = ∑ k : Fin 512, a (ix2 p k) * b (ix2 q k) :=
  LibProductAtT.matmul_zero_apply D none rfl rfl rfl rfl D_l0 D_r0 a b p q

/-- One slice of the sweep: columns `off … off + 127` of `a` and `b`, multiplied entry by entry over
    `[256, 128, 128]` and reduced by `max` from `-∞` over the last axis. -/
def slice (a : FVec Ideal S256x512 .f32) (b : FVec Ideal S128x512 .f32) (off : ℕ)
    (ha : S256x512.Slices ![0, off] S256x128) (hb : S128x512.Slices ![0, off] S128x128) : FVec Ideal S256x128 .f32 :=
  multiReduction .maximumf [2] S256x128
    (mulf
      (broadcastTo S256x128x128 (shapeCast S256x1x128 (extractStridedSlice S256x128 ![0, off] a ha) shapeCasts_S256x128_S256x1x128)
        broadcasts_S256x1x128_S256x128x128)
      (broadcastTo S256x128x128 (shapeCast S1x128x128 (extractStridedSlice S128x128 ![0, off] b hb) shapeCasts_S128x128_S1x128x128)
        broadcasts_S1x128x128_S256x128x128))
    0xFF800000#32 reduces_S256x128x128_S256x128 (.inl rfl) rfl

/-- A slice at `(p, q)`: the maximum from `-∞` over its 128 columns of `a_{p,off+l} · b_{q,off+l}`. -/
theorem slice_apply (a : FVec Ideal S256x512 .f32) (b : FVec Ideal S128x512 .f32) (off : ℕ) (hoff : off + 128 ≤ 512)
    (ha : S256x512.Slices ![0, off] S256x128) (hb : S128x512.Slices ![0, off] S128x128) (p : Fin 256) (q : Fin 128) :
    slice a b off ha hb (ix2 p q)
      = (Finset.univ : Finset (Fin 128)).fold max (⊥ : EReal) fun l =>
          a (ix2 p (⟨off + l.val, by have := l.isLt; omega⟩ : Fin 512)) * b (ix2 q (⟨off + l.val, by have := l.isLt; omega⟩ : Fin 512)) := by
  unfold slice
  refine (LibLaneMax.laneMax_apply _ reduces_S256x128x128_S256x128 (.inl rfl) rfl p q).trans ?_
  refine congrArg (fun f => Finset.fold max (⊥ : EReal) f (Finset.univ : Finset (Fin 128))) (funext fun l => ?_)
  rw [mulf_apply, LibAxes.broadcastTo_a1c_abc_apply, LibAxes.shapeCast_ac_a1c_apply, LibAxes.broadcastTo_1bc_abc_apply,
    LibLaneMax.shapeCast_bc_1bc_apply]
  rw [extractStridedSlice_apply ![0, off] a ha (ix2 p l) (ix2 p (⟨off + l.val, by have := l.isLt; omega⟩ : Fin 512))
      (fun ax => by match ax with | ⟨0, _⟩ => exact (Nat.zero_add _).symm | ⟨1, _⟩ => rfl),
    extractStridedSlice_apply ![0, off] b hb (ix2 q l) (ix2 q (⟨off + l.val, by have := l.isLt; omega⟩ : Fin 512))
      (fun ax => by match ax with | ⟨0, _⟩ => exact (Nat.zero_add _).symm | ⟨1, _⟩ => rfl)]

/-- The sweep: the running maximum, from `-∞`, of the four slices. -/
def sweep (a : FVec Ideal S256x512 .f32) (b : FVec Ideal S128x512 .f32) : FVec Ideal S256x128 .f32 :=
  maximumf (maximumf (maximumf (maximumf (broadcast S256x128 (Scalar.ofBits .f32 0xFF800000#32))
    (slice a b 0 slices_S256x512_o0_0_S256x128 slices_S128x512_o0_0_S128x128))
    (slice a b 128 slices_S256x512_o0_128_S256x128 slices_S128x512_o0_128_S128x128))
    (slice a b 256 slices_S256x512_o0_256_S256x128 slices_S128x512_o0_256_S128x128))
    (slice a b 384 slices_S256x512_o0_384_S256x128 slices_S128x512_o0_384_S128x128)

/-- The sweep at `(p, q)` is the maximum from `-∞` over all 512 columns. -/
theorem sweep_apply (a : FVec Ideal S256x512 .f32) (b : FVec Ideal S128x512 .f32) (p : Fin 256) (q : Fin 128) :
    sweep a b (ix2 p q) = (Finset.univ : Finset (Fin 512)).fold max (⊥ : EReal) fun k => a (ix2 p k) * b (ix2 q k) := by
  unfold sweep
  rw [maximumf_apply, maximumf_apply, maximumf_apply, maximumf_apply, broadcast_apply,
    slice_apply a b 0 (by omega), slice_apply a b 128 (by omega), slice_apply a b 256 (by omega), slice_apply a b 384 (by omega)]
  have hb : Scalar.ofBits (F := Ideal) .f32 0xFF800000#32 = (⊥ : EReal) := LibLaneMax.negInf_eq_bot
  rw [hb]
  exact LibChunkedMax.fold_max_four_chunks 128 (by norm_num : (512 : ℕ) = 4 * 128) (⊥ : EReal)
    (fun k : Fin 512 => a (ix2 p k) * b (ix2 q k))

/-! ## The first body -/

theorem first_product_eq (x0 : FVec Ideal S256x512 .f32) (x1 : FVec Ideal S128x512 .f32) :
    k0_pay2 (F := Ideal) x0 x1 = matmul D none x0 x1 (constant S256x128 .f32 0x00000000#32) := rfl

theorem first_bias_eq (x0 : FVec Ideal S256x512 .f32) (x1 : FVec Ideal S128x512 .f32) :
    k0_pay3 (F := Ideal) x0 x1 = mulf (broadcast S256x128 (Scalar.ofBits .f32 0x3DCCCCCD#32))
      (subf (sweep (absf x0) (absf x1)) (matmul D none (absf x0) (absf x1) (constant S256x128 .f32 0x00000000#32))) := rfl

/-- The first body stores the conjunction layer of its two blocks. -/
theorem first_eq (x0 : FVec Ideal S256x512 .f32) (x1 : FVec Ideal S128x512 .f32) :
    k0_pay1 (F := Ideal) (k0_pay2 (F := Ideal) x0 x1) (k0_pay3 (F := Ideal) x0 x1) = conj x0 x1 := by
  funext i
  obtain ⟨p, q, rfl⟩ : ∃ (p : Fin 256) (q : Fin 128), i = ix2 p q := ⟨i 0, i 1, eq_ix2 i⟩
  rw [conj_ix2]
  show Ideal.tanh (k0_pay2 (F := Ideal) x0 x1 (ix2 p q) + k0_pay3 (F := Ideal) x0 x1 (ix2 p q)) = _
  rw [first_product_eq, first_bias_eq, rows_product, mulf_apply, subf_apply, sweep_apply, rows_product, broadcast_apply]
  rfl

/-! ## The second body -/

theorem second_input_eq (x0 : FVec Ideal S256x512 .f32) : k1_pay2 (F := Ideal) x0 = x0 :=
  shapeCast_self x0 shapeCasts_S256x512_S256x512

theorem second_product_eq (x0 : FVec Ideal S256x512 .f32) (x1 : FVec Ideal S128x512 .f32) :
    k1_pay3 (F := Ideal) x0 x1 = matmul D none (k1_pay2 (F := Ideal) x0) x1 (constant S256x128 .f32 0x00000000#32) := rfl

theorem second_bias_eq (x0 : FVec Ideal S256x512 .f32) (x1 : FVec Ideal S128x512 .f32) :
    k1_pay4 (F := Ideal) x0 x1 = subf (matmul D none (absf (k1_pay2 (F := Ideal) x0)) (absf x1) (constant S256x128 .f32 0x00000000#32))
      (sweep (absf (k1_pay2 (F := Ideal) x0)) (absf x1)) := rfl

theorem second_scale_eq : k1_pay5 (F := Ideal) = broadcast S256x128 (Scalar.ofBits .f32 0x3DCCCCCD#32) := rfl

/-- The second body stores the disjunction layer of its two blocks. -/
theorem second_eq (x0 : FVec Ideal S256x512 .f32) (x1 : FVec Ideal S128x512 .f32) :
    k1_pay1 (F := Ideal) (k1_pay3 (F := Ideal) x0 x1) (k1_pay4 (F := Ideal) x0 x1) (k1_pay5 (F := Ideal)) = disj x0 x1 := by
  funext i
  obtain ⟨p, q, rfl⟩ : ∃ (p : Fin 256) (q : Fin 128), i = ix2 p q := ⟨i 0, i 1, eq_ix2 i⟩
  rw [disj_ix2]
  show k1_pay3 (F := Ideal) x0 x1 (ix2 p q) + k1_pay5 (F := Ideal) (ix2 p q) * k1_pay4 (F := Ideal) x0 x1 (ix2 p q) = _
  rw [second_product_eq, second_bias_eq, second_scale_eq, second_input_eq, rows_product, subf_apply, sweep_apply,
    rows_product, broadcast_apply]
  rfl

end Cert.KernelIdeal.Payload

end
-- ==== Proof.KernelArrays.lean ====
import proofs.«134802_j21912923144502_1_alg».proof.Proof.Gen.KernelIdeal.Frame
import proofs.«134802_j21912923144502_1_alg».proof.Proof.KernelPayload
import proofs.«134802_j21912923144502_1_alg».proof.Proof.DnfLayer
import Idealize.ShloMosaic.Lib.Pipeline.Value

/-!
# From blocks to arrays: what each launch leaves in its output array

First launch: grid `4 × 4`; at point `(s, u)` it reads rows `256·s … 256·s + 255` of the activations (all 512 columns)
and rows `128·u … 128·u + 127` of the weights, and writes back the `[256, 128]` block at `(256·s, 128·u)` of a
`[1024, 512]` array. Since entry `(p, q)` of a layer depends only on row `p` of the activations and row `q` of the
weights, the block written at `(s, u)` is that block of the conjunction layer of the WHOLE arrays; the sixteen blocks
tile the array (the block holding `(r, c)` is at `(r / 256, c / 128)`), so the array ends holding the conjunction layer.
Second launch: grid `4 × 1`, the same with the one `[128, 512]` weight block and a `[1024, 128]` result: the disjunction
layer. Both are stated at any contents `V` the launch may find on entry.
-/

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem Cert.DnfLayer
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-! ## The first launch -/

/-- The index maps over the grid: the activations' block row is the output's, the weights' block row is the output's
    block column, both inputs take all columns, and the output's block indices stay below 4. -/
theorem index_facts0 : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 3 :=
  (by decide +kernel : ∀ t : Fin grid0.N, _)

/-- Every block position of the `4 × 4` tiling is some point's. -/
theorem index_onto0 : ∀ (q0 : Fin 4) (q1 : Fin 4), ∃ t : Fin cfg0.N, win0_2.index t = ![q0.val, q1.val] :=
  (by decide +kernel : ∀ (q0 : Fin 4) (q1 : Fin 4), ∃ t : Fin grid0.N, win0_2.index t = ![q0.val, q1.val])

/-- What point `t` writes back is block `t` of the conjunction layer of the arrays the launch finds. -/
theorem flushed0_eq (c : Dev nD) (t : Fin cfg0.N) :
    (dat0 V c).flushed 2 t
      = ((cfg0.win 2).blk t).view.read (Elt Ideal) (conj (V c main_arg0) (V c main_arg1)) := by
  show (cfg0.win 2).cut (grid0.coords t) ((dat0 V c).after 2 t) = _
  rw [after0_2]
  unfold out0_2
  rw [View.canon_unit_zero zero_offsets]
  simp only [View.ld_unit_zero (S := S256x512) zero_offsets, View.ld_unit_zero (S := S128x512) zero_offsets]
  rw [Payload.first_eq]
  obtain ⟨e0, e1, e2, e3, -, -⟩ := index_facts0 t
  funext j
  show conj (iblk0 V c 0 t) (iblk0 V c 1 t) j = conj (V c main_arg0) (V c main_arg1) (((cfg0.win 2).blk t).view.emb j)
  refine conj_block (V c main_arg0) (V c main_arg1) (iblk0 V c 0 t) (iblk0 V c 1 t) j (((cfg0.win 2).blk t).view.emb j)
    (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ =>
      show win0_0.index t (0 : Fin 2) * 256 + 1 * (j 0).val = win0_2.index t (0 : Fin 2) * 256 + 1 * (j 0).val
      omega
    | ⟨1, _⟩ =>
      show win0_0.index t (1 : Fin 2) * 512 + 1 * k.val = k.val
      omega
  · show V c main_arg1 (((cfg0.win 1).blk t).view.emb (ix2 (j 1) k)) = V c main_arg1 (ix2 ((((cfg0.win 2).blk t).view.emb j) 1) k)
    refine congrArg (V c main_arg1) (funext fun a => Fin.ext ?_)
    match a with
    | ⟨0, _⟩ =>
      show win0_1.index t (0 : Fin 2) * 128 + 1 * (j 1).val = win0_2.index t (1 : Fin 2) * 128 + 1 * (j 1).val
      omega
    | ⟨1, _⟩ =>
      show win0_1.index t (1 : Fin 2) * 512 + 1 * k.val = k.val
      omega

/-- An index of the array is in point `t`'s block iff each coordinate is in the block's range on its axis. -/
theorem mem_block0 (t : Fin cfg0.N) (i : S1024x512.Idx) :
    i ∈ ((cfg0.win 2).blk t).view.set ↔ ∀ a : Fin 2, win0_2.index t a * S256x128.size a ≤ (i a).val
      ∧ (i a).val < win0_2.index t a * S256x128.size a + S256x128.size a := by
  show i ∈ ((View.whole main_v0).slice (win0_2.rect t)).set ↔ _
  rw [View.set_slice_whole, Rect.mem_set_unit]
  exact Iff.rfl

/-- The sixteen blocks cover the array. -/
theorem cover0 (i : S1024x512.Idx) :
    ∃ t : Fin cfg0.N, (cfg0.win 2).flush t = true ∧ i ∈ ((cfg0.win 2).blk t).view.set := by
  have hi0 : (i 0).val < 1024 := (i 0).isLt
  have hi1 : (i 1).val < 512 := (i 1).isLt
  obtain ⟨t, ht⟩ := index_onto0 ⟨(i 0).val / 256, by omega⟩ ⟨(i 1).val / 128, by omega⟩
  have q0 : win0_2.index t (0 : Fin 2) = (i 0).val / 256 := congrFun ht 0
  have q1 : win0_2.index t (1 : Fin 2) = (i 1).val / 128 := congrFun ht 1
  refine ⟨t, flush0_2 t, ?_⟩
  rw [mem_block0]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 128 ≤ (i 1).val ∧ (i 1).val < win0_2.index t (1 : Fin 2) * 128 + 128
    omega

/-- The first launch's output array ends holding the conjunction layer of its two input arrays. -/
theorem final0 (c : Dev nD) : (dat0 V c).arrAt 2 cfg0.N = conj (V c main_arg0) (V c main_arg1) :=
  (dat0 V c).arrAt_eq_of_cover 2 _ (fun t _ => flushed0_eq V c t) cover0

/-! ## The second launch -/

theorem index_facts1 : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 3 ∧ win1_2.index t (1 : Fin 2) ≤ 0 :=
  (by decide +kernel : ∀ t : Fin grid1.N, _)

theorem index_onto1 : ∀ (q0 : Fin 4) (q1 : Fin 1), ∃ t : Fin cfg1.N, win1_2.index t = ![q0.val, q1.val] :=
  (by decide +kernel : ∀ (q0 : Fin 4) (q1 : Fin 1), ∃ t : Fin grid1.N, win1_2.index t = ![q0.val, q1.val])

/-- What point `t` writes back is block `t` of the disjunction layer of the arrays the launch finds. -/
theorem flushed1_eq (c : Dev nD) (t : Fin cfg1.N) :
    (dat1 V c).flushed 2 t
      = ((cfg1.win 2).blk t).view.read (Elt Ideal) (disj (V c main_v0) (V c main_arg2)) := by
  show (cfg1.win 2).cut (grid1.coords t) ((dat1 V c).after 2 t) = _
  rw [after1_2]
  unfold out1_2
  rw [View.canon_unit_zero zero_offsets]
  simp only [View.ld_unit_zero (S := S256x512) zero_offsets, View.ld_unit_zero (S := S128x512) zero_offsets]
  rw [Payload.second_eq]
  obtain ⟨e0, e1, e2, e3, -, -⟩ := index_facts1 t
  funext j
  show disj (iblk1 V c 0 t) (iblk1 V c 1 t) j = disj (V c main_v0) (V c main_arg2) (((cfg1.win 2).blk t).view.emb j)
  refine disj_block (V c main_v0) (V c main_arg2) (iblk1 V c 0 t) (iblk1 V c 1 t) j (((cfg1.win 2).blk t).view.emb j)
    (fun k => ?_) (fun k => ?_)
  · show V c main_v0 (((cfg1.win 0).blk t).view.emb (ix2 (j 0) k)) = V c main_v0 (ix2 ((((cfg1.win 2).blk t).view.emb j) 0) k)
    refine congrArg (V c main_v0) (funext fun a => Fin.ext ?_)
    match a with
    | ⟨0, _⟩ =>
      show win1_0.index t (0 : Fin 2) * 256 + 1 * (j 0).val = win1_2.index t (0 : Fin 2) * 256 + 1 * (j 0).val
      omega
    | ⟨1, _⟩ =>
      show win1_0.index t (1 : Fin 2) * 512 + 1 * k.val = k.val
      omega
  · show V c main_arg2 (((cfg1.win 1).blk t).view.emb (ix2 (j 1) k)) = V c main_arg2 (ix2 ((((cfg1.win 2).blk t).view.emb j) 1) k)
    refine congrArg (V c main_arg2) (funext fun a => Fin.ext ?_)
    match a with
    | ⟨0, _⟩ =>
      show win1_1.index t (0 : Fin 2) * 128 + 1 * (j 1).val = win1_2.index t (1 : Fin 2) * 128 + 1 * (j 1).val
      omega
    | ⟨1, _⟩ =>
      show win1_1.index t (1 : Fin 2) * 512 + 1 * k.val = k.val
      omega

theorem mem_block1 (t : Fin cfg1.N) (i : S1024x128.Idx) :
    i ∈ ((cfg1.win 2).blk t).view.set ↔ ∀ a : Fin 2, win1_2.index t a * S256x128.size a ≤ (i a).val
      ∧ (i a).val < win1_2.index t a * S256x128.size a + S256x128.size a := by
  show i ∈ ((View.whole main_v1).slice (win1_2.rect t)).set ↔ _
  rw [View.set_slice_whole, Rect.mem_set_unit]
  exact Iff.rfl

/-- The four blocks cover the array. -/
theorem cover1 (i : S1024x128.Idx) :
    ∃ t : Fin cfg1.N, (cfg1.win 2).flush t = true ∧ i ∈ ((cfg1.win 2).blk t).view.set := by
  have hi0 : (i 0).val < 1024 := (i 0).isLt
  have hi1 : (i 1).val < 128 := (i 1).isLt
  obtain ⟨t, ht⟩ := index_onto1 ⟨(i 0).val / 256, by omega⟩ ⟨(i 1).val / 128, by omega⟩
  have q0 : win1_2.index t (0 : Fin 2) = (i 0).val / 256 := congrFun ht 0
  have q1 : win1_2.index t (1 : Fin 2) = (i 1).val / 128 := congrFun ht 1
  refine ⟨t, flush1_2 t, ?_⟩
  rw [mem_block1]
  intro a
  match a with
  | ⟨0, _⟩ =>
    show win1_2.index t (0 : Fin 2) * 256 ≤ (i 0).val ∧ (i 0).val < win1_2.index t (0 : Fin 2) * 256 + 256
    omega
  | ⟨1, _⟩ =>
    show win1_2.index t (1 : Fin 2) * 128 ≤ (i 1).val ∧ (i 1).val < win1_2.index t (1 : Fin 2) * 128 + 128
    omega

/-- The second launch's output array ends holding the disjunction layer of its two input arrays. -/
theorem final1 (c : Dev nD) : (dat1 V c).arrAt 2 cfg1.N = disj (V c main_v0) (V c main_arg2) :=
  (dat1 V c).arrAt_eq_of_cover 2 _ (fun t _ => flushed1_eq V c t) cover1

end Cert.KernelIdeal.Arrays

end
-- ==== Proof.KernelRun.lean ====
import proofs.«134802_j21912923144502_1_alg».proof.Proof.Gen.KernelIdeal.Frame
import proofs.«134802_j21912923144502_1_alg».proof.Proof.KernelArrays
import proofs.«134802_j21912923144502_1_alg».proof.Proof.DnfLayer

/-!
# The kernel program's run, with its result

The program is two launches in a row: the first writes an intermediate `[1024, 512]` array from the first two
arguments, the second reads that array and the third argument and writes the result. Run from the launch memory as two
segments, with every unscoped buffer read back at the end, it leaves the result array at what the second launch's
write-backs leave and the arguments as launched. Read through the two launches (each output array is its layer of its
input arrays; the intermediate array is found by the second launch as the first left it; the arguments are found as
launched), the result is the disjunction layer of the conjunction layer of the first two arguments, and of the third
argument.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DnfLayer

section Named

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at what the second
    launch leaves in it and the argument arrays as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Named

section Value

variable (m : (ℓ : Loc nD τ sig) → Buf (Elt Ideal) ℓ) (ρ : Dev nD → PrngReg)

/-- The intermediate array as the second launch finds it: the conjunction layer of the first two arguments. -/
theorem intermediate_eq (c : Dev nD) :
    V1 m ρ c main_v0
      = conj (m ((c.tc : Thread nD τ).loc main_arg0)) (m ((c.tc : Thread nD τ).loc main_arg1)) :=
  (W1_arr m ρ c 2).trans (Arrays.final0 (V0 m ρ) c)

/-- The third argument as the second launch finds it: as launched. -/
theorem weights2_eq (c : Dev nD) : V1 m ρ c main_arg2 = m ((c.tc : Thread nD τ).loc main_arg2) :=
  W1_of_ne m ρ c main_arg2 (by decide)

/-- The result array after the run: the two layers of the arguments. -/
theorem result_eq (c : Dev nD) :
    W2 m ρ c (Proc.devRef .tc main_v1)
      = disj (conj (m ((c.tc : Thread nD τ).loc main_arg0)) (m ((c.tc : Thread nD τ).loc main_arg1)))
          (m ((c.tc : Thread nD τ).loc main_arg2)) := by
  refine (W2_arr m ρ c 2).trans ((Arrays.final1 (V1 m ρ) c).trans ?_)
  rw [intermediate_eq, weights2_eq]

/-- The kernel program's run: it terminates, nothing faulting, with the result array at the disjunction layer of the
    conjunction layer of the first two arguments and of the third, the arguments unchanged. -/
theorem run : θ_run defs (onTc (τ := τ) (main (F := Ideal))) ⟨m, fun _ => 0, ρ⟩ (fun r => ∀ c : Dev nD,
      r.2.mem ((c.tc : Thread nD τ).loc main_v1)
        = disj (conj (m ((c.tc : Thread nD τ).loc main_arg0)) (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_named m ρ)

end Value

end Cert.KernelIdeal.Run

end
-- ==== Proof.lean ====
/-
  Two stacked layers, each  product + δ · (± (largest size − sum of sizes)),  the first followed by tanh.

  For activations x : [B, I] and weights W : [O, I], entry (b, o) of a layer is a function of row b of x and row o of W:
  with |t| = max t (−t) on the extended reals,
      product  = Σ_i x_{b,i} · W_{o,i},     sum = Σ_i |x_{b,i}| · |W_{o,i}|,     largest = max_i |x_{b,i}| · |W_{o,i}|  (from −∞),
  the conjunction layer is tanh (product + δ · (largest − sum)) and the disjunction layer product + δ · (sum − largest), δ the
  f32 nearest 0.1 (the same bit pattern on both sides, never evaluated). The claim: the kernel program (two launches, one per
  layer, tiled over rows of x and rows of W, the largest size swept in four slices of 128 columns) and the reference (which
  forms the rank-3 array |x_{b,i} · W_{o,i}| and reduces its middle axis) both end with the disjunction layer of the
  conjunction layer of (x, W_conj), and of W_disj.

  The one law that joins the two sides is |s · t| = |s| · |t|, which holds on ALL extended reals (Proof/LibAbsMul.lean), together
  with regrouping: a maximum over 512 terms taken as a running maximum of four 128-term maxima (Proof/LibChunkedMax.lean), and a
  tile product into a zero accumulator against a host contraction, both plain sums. Neither needs finiteness, so the
  precondition is never opened. Modules: Proof/DnfLayer.lean (the layers as functions), Proof/RefLayers.lean (the reference
  computes them), Proof/KernelPayload.lean (each kernel body stores its layer of its two blocks), Proof/KernelArrays.lean
  (each launch's blocks tile its output array), Proof/KernelRun.lean (the program's run with its result). The idealization
  rewrote nothing, so the kernel is its own idealization.
-/
import proofs.«134802_j21912923144502_1_alg».proof.Defs
import proofs.«134802_j21912923144502_1_alg».proof.Proof.Gen.Kernel
import proofs.«134802_j21912923144502_1_alg».proof.Proof.Gen.Kernel.Skeleton
import proofs.«134802_j21912923144502_1_alg».proof.Proof.Gen.Kernel.Launch
import proofs.«134802_j21912923144502_1_alg».proof.Proof.Gen.Kernel.Points
import proofs.«134802_j21912923144502_1_alg».proof.Proof.Gen.Kernel.Frame
import proofs.«134802_j21912923144502_1_alg».proof.Proof.Gen.KernelIdeal
import proofs.«134802_j21912923144502_1_alg».proof.Proof.Gen.KernelIdeal.Skeleton
import proofs.«134802_j21912923144502_1_alg».proof.Proof.Gen.KernelIdeal.Launch
import proofs.«134802_j21912923144502_1_alg».proof.Proof.Gen.KernelIdeal.Points
import proofs.«134802_j21912923144502_1_alg».proof.Proof.Gen.KernelIdeal.Frame
import proofs.«134802_j21912923144502_1_alg».proof.Proof.Gen.ReferenceIdeal
import proofs.«134802_j21912923144502_1_alg».proof.Proof.Gen.ReferenceIdeal.Run
import proofs.«134802_j21912923144502_1_alg».proof.Proof.Gen.ReferenceIdeal.Read
import proofs.«134802_j21912923144502_1_alg».proof.Proof.Gen.Pre_finite_inputs
import proofs.«134802_j21912923144502_1_alg».proof.Proof.DnfLayer
import proofs.«134802_j21912923144502_1_alg».proof.Proof.RefLayers
import proofs.«134802_j21912923144502_1_alg».proof.Proof.KernelRun
import Idealize.ShloMosaic.Adequacy
import Idealize.ShloMosaic.Init

noncomputable section

namespace Cert.Proof

open Idealize.ShloMosaic Idealize.ShloMosaic.TcCoe Idealize.SL.Sem Cert.DnfLayer

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the same program read on the extended reals. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- No operation was rewritten on the way to the extended reals. -/
theorem preserves : Cert.preserves_Kernel_KernelIdeal := trivial

/-- From memories agreeing on the arguments both programs end with the result array at the disjunction layer of the
    conjunction layer of the first two arguments, and of the third. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.Layers.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
